-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x256x256 : Shape := ⟨4, ![4, 64, 256, 256]⟩
abbrev S4x576x256x256 : Shape := ⟨4, ![4, 576, 256, 256]⟩
abbrev S_ : Shape := ⟨0, ![]⟩

class Facts : Prop where
  bcast_S_S4x64x256x256 : S_.BroadcastsInDim S4x64x256x256 (![] : Fin 0 → Fin S4x64x256x256.rank)
  reducesTo_S4x64x256x256_S_d0_1_2_3 : S4x64x256x256.ReducesTo [0, 1, 2, 3] S_
  h_S_ : 0 < S_.numel
  bcast_S_S4x576x256x256 : S_.BroadcastsInDim S4x576x256x256 (![] : Fin 0 → Fin S4x576x256x256.rank)
  reducesTo_S4x576x256x256_S_d0_1_2_3 : S4x576x256x256.ReducesTo [0, 1, 2, 3] S_

variable [Facts]

def fn {F : FTy → Type} [FloatOps F] (main_arg0 : FVec F S4x64x256x256 .f32) (main_arg1 : FVec F S4x576x256x256 .f32) : IVec S_ 1 :=
  let main_v0 : FVec F S4x64x256x256 .f32 := Host.absf main_arg0
  let main_cst : FVec F S_ .f32 := constant S_ .f32 0x7F800000#32
  let main_v1 : FVec F S4x64x256x256 .f32 := broadcastInDim S4x64x256x256 ![] bcast_S_S4x64x256x256 main_cst
  let main_v2 : IVec S4x64x256x256 1 := cmpf .olt main_v0 main_v1
  let main_c : IVec S_ 1 := constantI S_ 1 1#1
  let main_v3 : IVec S_ 1 := (fun x v => Host.reduce IntOp.andi x v reducesTo_S4x64x256x256_S_d0_1_2_3 h_S_) main_v2 main_c
  let main_v4 : FVec F S4x576x256x256 .f32 := Host.absf main_arg1
  let main_cst_0 : FVec F S_ .f32 := constant S_ .f32 0x7F800000#32
  let main_v5 : FVec F S4x576x256x256 .f32 := broadcastInDim S4x576x256x256 ![] bcast_S_S4x576x256x256 main_cst_0
  let main_v6 : IVec S4x576x256x256 1 := cmpf .olt main_v4 main_v5
  let main_c_1 : IVec S_ 1 := constantI S_ 1 1#1
  let main_v7 : IVec S_ 1 := (fun x v => Host.reduce IntOp.andi x v reducesTo_S4x576x256x256_S_d0_1_2_3 h_S_) main_v6 main_c_1
  let main_v8 : IVec S_ 1 := andi main_v3 main_v7
  main_v8
-- ==== Kernel.lean ====
abbrev S4x64x256x256 : Shape := ⟨4, ![4, 64, 256, 256]⟩
abbrev S4x576x256x256 : Shape := ⟨4, ![4, 576, 256, 256]⟩
abbrev S_ : Shape := ⟨0, ![]⟩
abbrev S4x64x258x258 : Shape := ⟨4, ![4, 64, 258, 258]⟩
abbrev S1x4x258x258 : Shape := ⟨4, ![1, 4, 258, 258]⟩
abbrev S1x36x256x256 : Shape := ⟨4, ![1, 36, 256, 256]⟩
abbrev S1x4x256x256 : Shape := ⟨4, ![1, 4, 256, 256]⟩
abbrev S4x258x258 : Shape := ⟨3, ![4, 258, 258]⟩
abbrev S36x256x256 : Shape := ⟨3, ![36, 256, 256]⟩
abbrev S4x9x256x256 : Shape := ⟨4, ![4, 9, 256, 256]⟩
abbrev S4x256x256 : Shape := ⟨3, ![4, 256, 256]⟩
abbrev S4x1x256x256 : Shape := ⟨4, ![4, 1, 256, 256]⟩

abbrev nBuf : Space → Nat
  | .hbm => 6
  | .vmem => 6
  | .smem => 0
  | _ => 0

abbrev bufTy : (tb : Table) → Fin (tcTables nBuf tb) → BufTy
  | .hbm, ⟨0, _⟩ => ⟨S4x64x256x256, .f32⟩
  | .hbm, ⟨1, _⟩ => ⟨S4x576x256x256, .f32⟩
  | .hbm, ⟨2, _⟩ => ⟨S_, .i32⟩
  | .hbm, ⟨3, _⟩ => ⟨S_, .f32⟩
  | .hbm, ⟨4, _⟩ => ⟨S4x64x258x258, .f32⟩
  | .hbm, ⟨5, _⟩ => ⟨S4x64x256x256, .f32⟩
  | .local _ .vmem, ⟨0, _⟩ => ⟨S1x4x258x258, .f32⟩
  | .local _ .vmem, ⟨1, _⟩ => ⟨S1x4x258x258, .f32⟩
  | .local _ .vmem, ⟨2, _⟩ => ⟨S1x36x256x256, .f32⟩
  | .local _ .vmem, ⟨3, _⟩ => ⟨S1x36x256x256, .f32⟩
  | .local _ .vmem, ⟨4, _⟩ => ⟨S1x4x256x256, .f32⟩
  | .local _ .vmem, ⟨5, _⟩ => ⟨S1x4x256x256, .f32⟩
  | _, _ => ⟨S4x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4x258x258 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x36x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  pads_S4x64x256x256_S4x64x258x258_000_000_110_110 : S4x64x256x256.Pads (![0, 0, 1, 1] : Fin 4 → Nat) ![0, 0, 1, 1] ![0, 0, 0, 0] S4x64x258x258
  h_S_ : 0 < S_.numel
  inb_S1x4x258x258_S1x4x258x258_0_0_0_0 : ∀ a, (![0, 0, 0, 0] : Fin 4 → Nat) a + S1x4x258x258.size a ≤ S1x4x258x258.size a
  h_S1x4x258x258 : 0 < S1x4x258x258.numel
  shapeCasts_S1x4x258x258_S4x258x258 : S1x4x258x258.ShapeCasts S4x258x258
  inb_S1x36x256x256_S1x36x256x256_0_0_0_0 : ∀ a, (![0, 0, 0, 0] : Fin 4 → Nat) a + S1x36x256x256.size a ≤ S1x36x256x256.size a
  h_S1x36x256x256 : 0 < S1x36x256x256.numel
  shapeCasts_S1x36x256x256_S36x256x256 : S1x36x256x256.ShapeCasts S36x256x256
  shapeCasts_S36x256x256_S4x9x256x256 : S36x256x256.ShapeCasts S4x9x256x256
  slices_S4x9x256x256_o0_0_0_0_S4x1x256x256 : S4x9x256x256.Slices ![0, 0, 0, 0] S4x1x256x256
  shapeCasts_S4x1x256x256_S4x256x256 : S4x1x256x256.ShapeCasts S4x256x256
  slices_S4x258x258_o0_0_0_S4x256x256 : S4x258x258.Slices ![0, 0, 0] S4x256x256
  slices_S4x9x256x256_o0_1_0_0_S4x1x256x256 : S4x9x256x256.Slices ![0, 1, 0, 0] S4x1x256x256
  slices_S4x258x258_o0_0_1_S4x256x256 : S4x258x258.Slices ![0, 0, 1] S4x256x256
  slices_S4x9x256x256_o0_2_0_0_S4x1x256x256 : S4x9x256x256.Slices ![0, 2, 0, 0] S4x1x256x256
  slices_S4x258x258_o0_0_2_S4x256x256 : S4x258x258.Slices ![0, 0, 2] S4x256x256
  slices_S4x9x256x256_o0_3_0_0_S4x1x256x256 : S4x9x256x256.Slices ![0, 3, 0, 0] S4x1x256x256
  slices_S4x258x258_o0_1_0_S4x256x256 : S4x258x258.Slices ![0, 1, 0] S4x256x256
  slices_S4x9x256x256_o0_4_0_0_S4x1x256x256 : S4x9x256x256.Slices ![0, 4, 0, 0] S4x1x256x256
  slices_S4x258x258_o0_1_1_S4x256x256 : S4x258x258.Slices ![0, 1, 1] S4x256x256
  slices_S4x9x256x256_o0_5_0_0_S4x1x256x256 : S4x9x256x256.Slices ![0, 5, 0, 0] S4x1x256x256
  slices_S4x258x258_o0_1_2_S4x256x256 : S4x258x258.Slices ![0, 1, 2] S4x256x256
  slices_S4x9x256x256_o0_6_0_0_S4x1x256x256 : S4x9x256x256.Slices ![0, 6, 0, 0] S4x1x256x256
  slices_S4x258x258_o0_2_0_S4x256x256 : S4x258x258.Slices ![0, 2, 0] S4x256x256
  slices_S4x9x256x256_o0_7_0_0_S4x1x256x256 : S4x9x256x256.Slices ![0, 7, 0, 0] S4x1x256x256
  slices_S4x258x258_o0_2_1_S4x256x256 : S4x258x258.Slices ![0, 2, 1] S4x256x256
  slices_S4x9x256x256_o0_8_0_0_S4x1x256x256 : S4x9x256x256.Slices ![0, 8, 0, 0] S4x1x256x256
  slices_S4x258x258_o0_2_2_S4x256x256 : S4x258x258.Slices ![0, 2, 2] S4x256x256
  inb_S1x4x256x256_S1x4x256x256_0_0_0_0 : ∀ a, (![0, 0, 0, 0] : Fin 4 → Nat) a + S1x4x256x256.size a ≤ S1x4x256x256.size a
  h_S1x4x256x256 : 0 < S1x4x256x256.numel
  shapeCasts_S1x4x256x256_S4x256x256 : S1x4x256x256.ShapeCasts S4x256x256
  shapeCasts_S4x256x256_S1x4x256x256 : S4x256x256.ShapeCasts S1x4x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x258x258.size a ≤ S4x64x258x258.size a
  hwx0_0 : ∀ i : grid0.Coords, EltTy.bits .f32 = 32 ∨ (Rect.block (s := S4x64x258x258) S1x4x258x258.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x36x256x256.size a ≤ S4x576x256x256.size a
  hwx0_1 : ∀ i : grid0.Coords, EltTy.bits .f32 = 32 ∨ (Rect.block (s := S4x576x256x256) S1x36x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4x256x256.size a ≤ S4x64x256x256.size a
  hwx0_2 : ∀ i : grid0.Coords, EltTy.bits .f32 = 32 ∨ (Rect.block (s := S4x64x256x256) S1x4x256x256.size (cc0_transform_2 i) (hinb0_2 i)).WholeWords (EltTy.packing .f32)

variable [Facts₀]

abbrev win0_0 : Pipeline.Window sig grid0 :=
  Pipeline.Window.ofSpec (Memref.whole main_v0) S1x4x258x258.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x36x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x4x256x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x64x256x256 : Shape := ⟨4, ![4, 64, 256, 256]⟩
abbrev S4x576x256x256 : Shape := ⟨4, ![4, 576, 256, 256]⟩
abbrev S_ : Shape := ⟨0, ![]⟩
abbrev S4x64x258x258 : Shape := ⟨4, ![4, 64, 258, 258]⟩
abbrev S4x64x1x256x256 : Shape := ⟨5, ![4, 64, 1, 256, 256]⟩
abbrev S4x64x9x256x256 : Shape := ⟨5, ![4, 64, 9, 256, 256]⟩

abbrev nBuf : Space → Nat
  | .hbm => 28
  | .vmem => 0
  | .smem => 0
  | _ => 0

abbrev bufTy : (tb : Table) → Fin (tcTables nBuf tb) → BufTy
  | .hbm, ⟨0, _⟩ => ⟨S4x64x256x256, .f32⟩
  | .hbm, ⟨1, _⟩ => ⟨S4x576x256x256, .f32⟩
  | .hbm, ⟨2, _⟩ => ⟨S_, .i32⟩
  | .hbm, ⟨3, _⟩ => ⟨S_, .f32⟩
  | .hbm, ⟨4, _⟩ => ⟨S4x64x258x258, .f32⟩
  | .hbm, ⟨5, _⟩ => ⟨S4x64x256x256, .f32⟩
  | .hbm, ⟨6, _⟩ => ⟨S4x64x256x256, .f32⟩
  | .hbm, ⟨7, _⟩ => ⟨S4x64x256x256, .f32⟩
  | .hbm, ⟨8, _⟩ => ⟨S4x64x256x256, .f32⟩
  | .hbm, ⟨9, _⟩ => ⟨S4x64x256x256, .f32⟩
  | .hbm, ⟨10, _⟩ => ⟨S4x64x256x256, .f32⟩
  | .hbm, ⟨11, _⟩ => ⟨S4x64x256x256, .f32⟩
  | .hbm, ⟨12, _⟩ => ⟨S4x64x256x256, .f32⟩
  | .hbm, ⟨13, _⟩ => ⟨S4x64x256x256, .f32⟩
  | .hbm, ⟨14, _⟩ => ⟨S4x64x1x256x256, .f32⟩
  | .hbm, ⟨15, _⟩ => ⟨S4x64x1x256x256, .f32⟩
  | .hbm, ⟨16, _⟩ => ⟨S4x64x1x256x256, .f32⟩
  | .hbm, ⟨17, _⟩ => ⟨S4x64x1x256x256, .f32⟩
  | .hbm, ⟨18, _⟩ => ⟨S4x64x1x256x256, .f32⟩
  | .hbm, ⟨19, _⟩ => ⟨S4x64x1x256x256, .f32⟩
  | .hbm, ⟨20, _⟩ => ⟨S4x64x1x256x256, .f32⟩
  | .hbm, ⟨21, _⟩ => ⟨S4x64x1x256x256, .f32⟩
  | .hbm, ⟨22, _⟩ => ⟨S4x64x1x256x256, .f32⟩
  | .hbm, ⟨23, _⟩ => ⟨S4x64x9x256x256, .f32⟩
  | .hbm, ⟨24, _⟩ => ⟨S4x64x9x256x256, .f32⟩
  | .hbm, ⟨25, _⟩ => ⟨S4x64x9x256x256, .f32⟩
  | .hbm, ⟨26, _⟩ => ⟨S_, .f32⟩
  | .hbm, ⟨27, _⟩ => ⟨S4x64x256x256, .f32⟩
  | _, _ => ⟨S4x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩

abbrev nD : Nat := 1
abbrev τ : Topo := Topo.v7x

variable {F : FTy → Type} [FloatOps F]

class Facts₀ : Prop where
  pads_S4x64x256x256_S4x64x258x258_000_000_110_110 : S4x64x256x256.Pads (![0, 0, 1, 1] : Fin 4 → Nat) ![0, 0, 1, 1] ![0, 0, 0, 0] S4x64x258x258
  h_S_ : 0 < S_.numel
  slices_S4x64x258x258_S4x64x256x256_0_0_0_0 : S4x64x258x258.Slices ![0, 0, 0, 0] S4x64x256x256
  slices_S4x64x258x258_S4x64x256x256_0_0_0_1 : S4x64x258x258.Slices ![0, 0, 0, 1] S4x64x256x256
  slices_S4x64x258x258_S4x64x256x256_0_0_0_2 : S4x64x258x258.Slices ![0, 0, 0, 2] S4x64x256x256
  slices_S4x64x258x258_S4x64x256x256_0_0_1_0 : S4x64x258x258.Slices ![0, 0, 1, 0] S4x64x256x256
  slices_S4x64x258x258_S4x64x256x256_0_0_1_1 : S4x64x258x258.Slices ![0, 0, 1, 1] S4x64x256x256
  slices_S4x64x258x258_S4x64x256x256_0_0_1_2 : S4x64x258x258.Slices ![0, 0, 1, 2] S4x64x256x256
  slices_S4x64x258x258_S4x64x256x256_0_0_2_0 : S4x64x258x258.Slices ![0, 0, 2, 0] S4x64x256x256
  slices_S4x64x258x258_S4x64x256x256_0_0_2_1 : S4x64x258x258.Slices ![0, 0, 2, 1] S4x64x256x256
  slices_S4x64x258x258_S4x64x256x256_0_0_2_2 : S4x64x258x258.Slices ![0, 0, 2, 2] S4x64x256x256
  bcast_S4x64x256x256_S4x64x1x256x256_0_1_3_4 : S4x64x256x256.BroadcastsInDim S4x64x1x256x256 (![0, 1, 3, 4] : Fin 4 → Fin S4x64x1x256x256.rank)
  concatenates_S4x64x1x256x256_S4x64x1x256x256_S4x64x1x256x256_S4x64x1x256x256_S4x64x1x256x256_S4x64x1x256x256_S4x64x1x256x256_S4x64x1x256x256_S4x64x1x256x256_S4x64x9x256x256_d2 : Shape.Concatenates [S4x64x1x256x256, S4x64x1x256x256, S4x64x1x256x256, S4x64x1x256x256, S4x64x1x256x256, S4x64x1x256x256, S4x64x1x256x256, S4x64x1x256x256, S4x64x1x256x256] S4x64x9x256x256 2
  shapeCasts_S4x576x256x256_S4x64x9x256x256 : S4x576x256x256.ShapeCasts S4x64x9x256x256
  reducesTo_S4x64x9x256x256_S4x64x256x256_d2 : S4x64x9x256x256.ReducesTo [2] S4x64x256x256

variable [Facts₀]

class Facts : Prop extends Facts₀ where

variable [Facts]
-- ==== Proof.NineTaps.lean ====
/-
  The function both programs compute. Write `xp` for the image padded by one ring of zeros on its two
  spatial axes, f32[4, 64, 258, 258], and `w` for the per-pixel weights, f32[4, 576, 256, 256], whose
  channel `9·c + k` holds tap `k` of image channel `c`. The depthwise 3×3 convolution with per-pixel
  weights is, at batch `n`, channel `c`, row `h`, column `v`,

      conv xp w (n, c, h, v) = Σ_{k < 9} xp (n, c, k / 3 + h, k % 3 + v) · w (n, 9·c + k, h, v).

  Tap `k` sits at row offset `k / 3` and column offset `k % 3` of the 3×3 stencil (row-major order).
  Nothing here mentions either program: the values are extended reals, and the only law used later is
  that a sum over nine indices is the sum of its nine terms in any bracketing.
-/
import Idealize.ShloMosaic.PureOps.Ideal
import Idealize.ShloMosaic.Lib.ValueIdx

noncomputable section

open scoped BigOperators

namespace Cert.NineTaps

open Idealize.ShloMosaic Idealize.ShloMosaic.ValueIdx

/-- The padded image's shape, the weights' shape and the result's shape. -/
abbrev SPad : Shape := ⟨4, ![4, 64, 258, 258]⟩
abbrev SWts : Shape := ⟨4, ![4, 576, 256, 256]⟩
abbrev SOut : Shape := ⟨4, ![4, 64, 256, 256]⟩

/-- Where tap `k` of output pixel `(n, c, h, v)` reads the padded image: the stencil's row `k / 3` and
    column `k % 3` added to the pixel's row and column. -/
abbrev padAt (n : Fin 4) (c : Fin 64) (h v : Fin 256) (k : Fin 9) : SPad.Idx :=
  ix4 n c ⟨k.val / 3 + h.val, by have := k.isLt; have := h.isLt; omega⟩
    ⟨k.val % 3 + v.val, by have := k.isLt; have := v.isLt; omega⟩

/-- Where tap `k` of output pixel `(n, c, h, v)` reads the weights: channel `9·c + k` at the same pixel. -/
abbrev wtAt (n : Fin 4) (c : Fin 64) (h v : Fin 256) (k : Fin 9) : SWts.Idx :=
  ix4 n ⟨c.val * 9 + k.val, by have := k.isLt; have := c.isLt; omega⟩ h v

/-- The nine-tap sum at one output pixel. -/
def conv (xp : SPad.Idx → EReal) (w : SWts.Idx → EReal) : SOut.Idx → EReal := fun i =>
  ∑ k : Fin 9, xp (padAt (i 0) (i 1) (i 2) (i 3) k) * w (wtAt (i 0) (i 1) (i 2) (i 3) k)

theorem conv_apply (xp : SPad.Idx → EReal) (w : SWts.Idx → EReal) (n : Fin 4) (c : Fin 64) (h v : Fin 256) :
    conv xp w (ix4 n c h v) = ∑ k : Fin 9, xp (padAt n c h v k) * w (wtAt n c h v k) := rfl

/-- A sum over nine indices, written out from the left. -/
theorem sum_univ_nine {M : Type} [AddCommMonoid M] (f : Fin 9 → M) :
    ∑ k, f k = f 0 + f 1 + f 2 + f 3 + f 4 + f 5 + f 6 + f 7 + f 8 := by
  rw [Fin.sum_univ_castSucc, Fin.sum_univ_eight]; rfl

end Cert.NineTaps

end
-- ==== Proof.StoredTaps.lean ====
/-
  What the kernel body stores, read at one entry of the output block.

  The body loads a padded-image block `x0` : [1, 4, 258, 258] (four channels with their zero ring) and a
  weight block `x1` : [1, 36, 256, 256] (the nine taps of each of those four channels, channel `9·cb + k`
  being tap `k` of block channel `cb`), and stores, at block channel `cb`, row `h`, column `v`,

      0 + x1(9·cb + 0, h, v) · x0(cb, 0 + h, 0 + v) + x1(9·cb + 1, h, v) · x0(cb, 0 + h, 1 + v) + …
        + x1(9·cb + 8, h, v) · x0(cb, 2 + h, 2 + v),

  accumulated from the left. Each weight factor is a unit slice of the regrouped weights
  [36, 256, 256] → [4, 9, 256, 256]; each image factor is a 256×256 window of the padded block at one of the
  nine stencil offsets.
-/
import proofs.«151327_j14620068675753_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.StoredTaps

open Cert.KernelIdeal Cert.KernelIdeal.Gen Idealize.ShloMosaic Idealize.ShloMosaic.ValueIdx

/-- Channel `9·cb + o` of the weight block, at pixel `(h, v)`. -/
abbrev wtIx (cb : Fin 4) (o : Nat) (ho : o < 9) (h v : Fin 256) : S1x36x256x256.Idx :=
  ix4 (0 : Fin 1) (⟨cb.val * 9 + o, by have := cb.isLt; omega⟩ : Fin 36) h v

/-- Channel `cb` of the padded block, at row `a + h` and column `b + v`. -/
abbrev imIx (cb : Fin 4) (a b : Nat) (ha : a < 3) (hb : b < 3) (h v : Fin 256) : S1x4x258x258.Idx :=
  ix4 (0 : Fin 1) cb (⟨a + h.val, by have := h.isLt; omega⟩ : Fin 258) (⟨b + v.val, by have := v.isLt; omega⟩ : Fin 258)

/-- The weight block regrouped as [4, 9, 256, 256]: entry `(cb, k)` is channel `9·cb + k`. -/
theorem regroup_apply (x1 : Vec Ideal S1x36x256x256 .f32) (cb : Fin 4) (o : Nat) (ho : o < 9) (h v : Fin 256) :
    k0_pay3 x1 (ix4 cb (⟨o, ho⟩ : Fin 9) h v) = x1 (wtIx cb o ho h v) := by
  unfold k0_pay3
  rw [shapeCast_apply _ shapeCasts_S36x256x256_S4x9x256x256 (ix4 cb (⟨o, ho⟩ : Fin 9) h v)
      (ix3 (⟨cb.val * 9 + o, by have := cb.isLt; omega⟩ : Fin 36) h v)
      (by rw [Shape.rowMajor_val_three, Shape.rowMajor_val_four]
          show ((cb.val * 9 + o) * 256 + h.val) * 256 + v.val = ((cb.val * 9 + o) * 256 + h.val) * 256 + v.val
          rfl)]
  exact shapeCast_apply x1 shapeCasts_S1x36x256x256_S36x256x256 _ (wtIx cb o ho h v)
      (by rw [Shape.rowMajor_val_three, Shape.rowMajor_val_four]
          show (((0 : Nat) * 36 + (cb.val * 9 + o)) * 256 + h.val) * 256 + v.val = ((cb.val * 9 + o) * 256 + h.val) * 256 + v.val
          omega)

/-- Tap `o` of the weights, as the body takes it: the unit slice at offset `o` on the tap axis of the regrouped
    block, with that axis dropped. At `(cb, h, v)` it is channel `9·cb + o` of the weight block at `(h, v)`. -/
theorem wt_tap (x1 : Vec Ideal S1x36x256x256 .f32) (o : Nat) (ho : o < 9)
    (hs : S4x9x256x256.Slices ![0, o, 0, 0] S4x1x256x256) (cb : Fin 4) (h v : Fin 256) :
    shapeCast S4x256x256 (extractStridedSlice S4x1x256x256 ![0, o, 0, 0] (k0_pay3 x1) hs)
        shapeCasts_S4x1x256x256_S4x256x256 (ix3 cb h v) = x1 (wtIx cb o ho h v) := by
  rw [shapeCast_apply _ shapeCasts_S4x1x256x256_S4x256x256 (ix3 cb h v) (ix4 cb (0 : Fin 1) h v)
      (by rw [Shape.rowMajor_val_three, Shape.rowMajor_val_four]
          show ((cb.val * 1 + 0) * 256 + h.val) * 256 + v.val = (cb.val * 256 + h.val) * 256 + v.val
          omega)]
  rw [extractStridedSlice_apply ![0, o, 0, 0] (k0_pay3 x1) hs (ix4 cb (0 : Fin 1) h v) (ix4 cb (⟨o, ho⟩ : Fin 9) h v)
      (fun a => match a with
        | ⟨0, _⟩ => by show cb.val = 0 + cb.val; omega
        | ⟨1, _⟩ => by show o = o + 0; omega
        | ⟨2, _⟩ => by show h.val = 0 + h.val; omega
        | ⟨3, _⟩ => by show v.val = 0 + v.val; omega)]
  exact regroup_apply x1 cb o ho h v

/-- The image factor of the tap at stencil offset `(a, b)`: the 256×256 window of the padded block starting at row
    `a`, column `b`. At `(cb, h, v)` it is the padded block at `(cb, a + h, b + v)`. -/
theorem im_tap (x0 : Vec Ideal S1x4x258x258 .f32) (a b : Nat) (ha : a < 3) (hb : b < 3)
    (hs : S4x258x258.Slices ![0, a, b] S4x256x256) (cb : Fin 4) (h v : Fin 256) :
    extractStridedSlice S4x256x256 ![0, a, b] (k0_pay2 x0) hs (ix3 cb h v) = x0 (imIx cb a b ha hb h v) := by
  rw [extractStridedSlice_apply ![0, a, b] (k0_pay2 x0) hs (ix3 cb h v)
      (ix3 cb (⟨a + h.val, by have := h.isLt; omega⟩ : Fin 258) (⟨b + v.val, by have := v.isLt; omega⟩ : Fin 258))
      (fun d => match d with
        | ⟨0, _⟩ => by show cb.val = 0 + cb.val; omega
        | ⟨1, _⟩ => by show a + h.val = a + h.val; rfl
        | ⟨2, _⟩ => by show b + v.val = b + v.val; rfl)]
  unfold k0_pay2
  exact shapeCast_apply x0 shapeCasts_S1x4x258x258_S4x258x258 _ (imIx cb a b ha hb h v)
      (by rw [Shape.rowMajor_val_three, Shape.rowMajor_val_four]
          show (((0 : Nat) * 4 + cb.val) * 258 + (a + h.val)) * 258 + (b + v.val) = (cb.val * 258 + (a + h.val)) * 258 + (b + v.val)
          omega)

/-- THE STORED VALUE at block channel `cb`, row `h`, column `v`: zero plus the nine products weight · image,
    added from the left in stencil order. -/
theorem stored_apply (x0 : Vec Ideal S1x4x258x258 .f32) (x1 : Vec Ideal S1x36x256x256 .f32) (cb : Fin 4) (h v : Fin 256) :
    k0_pay1 (k0_pay4 x0 x1) (k0_pay5 x1) (k0_pay6 x0) (ix4 (0 : Fin 1) cb h v)
      = (0 : EReal)
        + x1 (wtIx cb 0 (by omega) h v) * x0 (imIx cb 0 0 (by omega) (by omega) h v)
        + x1 (wtIx cb 1 (by omega) h v) * x0 (imIx cb 0 1 (by omega) (by omega) h v)
        + x1 (wtIx cb 2 (by omega) h v) * x0 (imIx cb 0 2 (by omega) (by omega) h v)
        + x1 (wtIx cb 3 (by omega) h v) * x0 (imIx cb 1 0 (by omega) (by omega) h v)
        + x1 (wtIx cb 4 (by omega) h v) * x0 (imIx cb 1 1 (by omega) (by omega) h v)
        + x1 (wtIx cb 5 (by omega) h v) * x0 (imIx cb 1 2 (by omega) (by omega) h v)
        + x1 (wtIx cb 6 (by omega) h v) * x0 (imIx cb 2 0 (by omega) (by omega) h v)
        + x1 (wtIx cb 7 (by omega) h v) * x0 (imIx cb 2 1 (by omega) (by omega) h v)
        + x1 (wtIx cb 8 (by omega) h v) * x0 (imIx cb 2 2 (by omega) (by omega) h v) := by
  unfold k0_pay1
  rw [shapeCast_apply _ shapeCasts_S4x256x256_S1x4x256x256 (ix4 (0 : Fin 1) cb h v) (ix3 cb h v)
      (by rw [Shape.rowMajor_val_three, Shape.rowMajor_val_four]
          show (cb.val * 256 + h.val) * 256 + v.val = (((0 : Nat) * 4 + cb.val) * 256 + h.val) * 256 + v.val
          omega)]
  unfold k0_pay4 k0_pay5 k0_pay6
  simp only [addf_apply, mulf_apply, broadcast_apply]
  rw [wt_tap x1 0 (by omega) _ cb h v, wt_tap x1 1 (by omega) _ cb h v, wt_tap x1 2 (by omega) _ cb h v,
    wt_tap x1 3 (by omega) _ cb h v, wt_tap x1 4 (by omega) _ cb h v, wt_tap x1 5 (by omega) _ cb h v,
    wt_tap x1 6 (by omega) _ cb h v, wt_tap x1 7 (by omega) _ cb h v, wt_tap x1 8 (by omega) _ cb h v,
    im_tap x0 0 0 (by omega) (by omega) _ cb h v, im_tap x0 0 1 (by omega) (by omega) _ cb h v,
    im_tap x0 0 2 (by omega) (by omega) _ cb h v, im_tap x0 1 0 (by omega) (by omega) _ cb h v,
    im_tap x0 1 1 (by omega) (by omega) _ cb h v, im_tap x0 1 2 (by omega) (by omega) _ cb h v,
    im_tap x0 2 0 (by omega) (by omega) _ cb h v, im_tap x0 2 1 (by omega) (by omega) _ cb h v,
    im_tap x0 2 2 (by omega) (by omega) _ cb h v,
    Ideal.ofBits_def, Ideal.ofBits_zero_f32]

end Cert.KernelIdeal.StoredTaps

end
-- ==== Proof.ConvArray.lean ====
/-
  From the kernel's blocks to its whole output array.

  The grid has 4 × 16 points. Point `(q0, q1)` works on batch `q0` and the four channels `4·q1 … 4·q1 + 3`: it is
  handed the padded image's block `(q0, q1)` of shape [1, 4, 258, 258], the weights' block `(q0, q1)` of shape
  [1, 36, 256, 256] (channels `36·q1 … 36·q1 + 35`, that is the nine taps of those four channels, since
  `36·q1 + 9·cb + k = 9·(4·q1 + cb) + k`), and writes the output's block `(q0, q1)` of shape [1, 4, 256, 256].
  So what it writes is the nine-tap sum `NineTaps.conv` of the whole padded image and the whole weights,
  restricted to its block; the 64 blocks tile the output, so the output array ends as `conv` of the two arrays.
  The padded image is what the host operations before the launch leave: the argument padded by zeros.
-/
import proofs.«151327_j14620068675753_1_alg».proof.Proof.Gen.KernelIdeal.Value
import proofs.«151327_j14620068675753_1_alg».proof.Proof.NineTaps
import proofs.«151327_j14620068675753_1_alg».proof.Proof.StoredTaps
import Idealize.ShloMosaic.Lib.Pipeline.Value
import Idealize.ShloMosaic.Lib.StableHlo.Run

noncomputable section

open scoped BigOperators

namespace Cert.KernelIdeal.ConvArray

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.NineTaps Cert.KernelIdeal.StoredTaps

/-! ## One block, over plain arrays -/

/-- One product of the stored sum is one term of the nine-tap sum: the weight block's channel `9·cb + o` is the
    weights' channel `9·(4·q1 + cb) + o`, the padded block's entry `(cb, a + h, b + v)` is the padded image's entry
    at channel `4·q1 + cb`, and `(a, b)` is tap `o`'s stencil offset. -/
theorem tap_eq (XP : SPad.Idx → EReal) (W : SWts.Idx → EReal) (q0 q1 : Nat) (hq0 : q0 < 4) (hq1 : q1 < 16)
    (cb : Fin 4) (h v : Fin 256) (o a b : Nat) (ho : o < 9) (ha : a < 3) (hb : b < 3) (hoa : o / 3 = a) (hob : o % 3 = b) :
    W (ix4 (⟨q0, hq0⟩ : Fin 4) (⟨q1 * 36 + (cb.val * 9 + o), by have := cb.isLt; omega⟩ : Fin 576) h v)
        * XP (ix4 (⟨q0, hq0⟩ : Fin 4) (⟨q1 * 4 + cb.val, by have := cb.isLt; omega⟩ : Fin 64)
            (⟨a + h.val, by have := h.isLt; omega⟩ : Fin 258) (⟨b + v.val, by have := v.isLt; omega⟩ : Fin 258))
      = XP (padAt ⟨q0, hq0⟩ ⟨q1 * 4 + cb.val, by have := cb.isLt; omega⟩ h v ⟨o, ho⟩)
        * W (wtAt ⟨q0, hq0⟩ ⟨q1 * 4 + cb.val, by have := cb.isLt; omega⟩ h v ⟨o, ho⟩) := by
  have e1 : (ix4 (⟨q0, hq0⟩ : Fin 4) (⟨q1 * 36 + (cb.val * 9 + o), by have := cb.isLt; omega⟩ : Fin 576) h v : SWts.Idx)
      = wtAt ⟨q0, hq0⟩ ⟨q1 * 4 + cb.val, by have := cb.isLt; omega⟩ h v ⟨o, ho⟩ :=
    funext fun d => Fin.ext (by
      match d with
      | ⟨0, _⟩ => rfl
      | ⟨1, _⟩ => show q1 * 36 + (cb.val * 9 + o) = (q1 * 4 + cb.val) * 9 + o; omega
      | ⟨2, _⟩ => rfl
      | ⟨3, _⟩ => rfl)
  have e2 : (ix4 (⟨q0, hq0⟩ : Fin 4) (⟨q1 * 4 + cb.val, by have := cb.isLt; omega⟩ : Fin 64)
        (⟨a + h.val, by have := h.isLt; omega⟩ : Fin 258) (⟨b + v.val, by have := v.isLt; omega⟩ : Fin 258) : SPad.Idx)
      = padAt ⟨q0, hq0⟩ ⟨q1 * 4 + cb.val, by have := cb.isLt; omega⟩ h v ⟨o, ho⟩ :=
    funext fun d => Fin.ext (by
      match d with
      | ⟨0, _⟩ => rfl
      | ⟨1, _⟩ => rfl
      | ⟨2, _⟩ => show a + h.val = o / 3 + h.val; omega
      | ⟨3, _⟩ => show b + v.val = o % 3 + v.val; omega)
  rw [e1, e2, mul_comm]

/-- THE BLOCK: if `x0` is block `(q0, q1)` of the padded image and `x1` block `(q0, q1)` of the weights, the body's
    stored value at `(cb, h, v)` is the nine-tap sum at `(q0, 4·q1 + cb, h, v)`. The stored sum starts from zero and
    adds from the left; the nine-tap sum is the same nine terms. -/
theorem block_eq (XP : SPad.Idx → EReal) (W : SWts.Idx → EReal) (q0 q1 : Nat) (hq0 : q0 < 4) (hq1 : q1 < 16)
    (x0 : Vec Ideal S1x4x258x258 .f32) (x1 : Vec Ideal S1x36x256x256 .f32)
    (hx0 : ∀ (cb : Fin 4) (r s : Fin 258), x0 (ix4 (0 : Fin 1) cb r s)
      = XP (ix4 (⟨q0, hq0⟩ : Fin 4) (⟨q1 * 4 + cb.val, by have := cb.isLt; omega⟩ : Fin 64) r s))
    (hx1 : ∀ (ch : Fin 36) (h v : Fin 256), x1 (ix4 (0 : Fin 1) ch h v)
      = W (ix4 (⟨q0, hq0⟩ : Fin 4) (⟨q1 * 36 + ch.val, by have := ch.isLt; omega⟩ : Fin 576) h v))
    (cb : Fin 4) (h v : Fin 256) :
    Gen.k0_pay1 (Gen.k0_pay4 x0 x1) (Gen.k0_pay5 x1) (Gen.k0_pay6 x0) (ix4 (0 : Fin 1) cb h v)
      = conv XP W (ix4 (⟨q0, hq0⟩ : Fin 4) (⟨q1 * 4 + cb.val, by have := cb.isLt; omega⟩ : Fin 64) h v) := by
  rw [stored_apply, conv_apply, sum_univ_nine, zero_add]
  simp only [hx0, hx1]
  rw [tap_eq XP W q0 q1 hq0 hq1 cb h v 0 0 0 (by omega) (by omega) (by omega) rfl rfl,
    tap_eq XP W q0 q1 hq0 hq1 cb h v 1 0 1 (by omega) (by omega) (by omega) rfl rfl,
    tap_eq XP W q0 q1 hq0 hq1 cb h v 2 0 2 (by omega) (by omega) (by omega) rfl rfl,
    tap_eq XP W q0 q1 hq0 hq1 cb h v 3 1 0 (by omega) (by omega) (by omega) rfl rfl,
    tap_eq XP W q0 q1 hq0 hq1 cb h v 4 1 1 (by omega) (by omega) (by omega) rfl rfl,
    tap_eq XP W q0 q1 hq0 hq1 cb h v 5 1 2 (by omega) (by omega) (by omega) rfl rfl,
    tap_eq XP W q0 q1 hq0 hq1 cb h v 6 2 0 (by omega) (by omega) (by omega) rfl rfl,
    tap_eq XP W q0 q1 hq0 hq1 cb h v 7 2 1 (by omega) (by omega) (by omega) rfl rfl,
    tap_eq XP W q0 q1 hq0 hq1 cb h v 8 2 2 (by omega) (by omega) (by omega) rfl rfl]
  rfl

/-! ## The printed index maps, decided over the 64 grid points -/

variable (m : (ℓ : Loc nD τ sig) → Buf (Elt Ideal) ℓ) (ρ : Dev nD → PrngReg)

theorem zero4 : (![0, 0, 0, 0] : Fin 4 → Nat) = fun _ => 0 := funext fun a => by fin_cases a <;> rfl

/-- All three windows move together: at every point the image's and the weights' block indices are the output's on
    the batch and channel-block axes and zero on the two spatial axes; the output's stay inside 4 × 16. -/
theorem index_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (0 : Fin 4) < 4 ∧ win0_2.index t (1 : Fin 4) < 16
    ∧ win0_2.index t (2 : Fin 4) = 0 ∧ win0_2.index t (3 : Fin 4) = 0 :=
  (by decide +kernel : ∀ t : Fin grid0.N, _)

/-- Every output block `(q0, q1)` is some point's. -/
theorem index_onto : ∀ (q0 : Fin 4) (q1 : Fin 16), ∃ t : Fin cfg0.N, win0_2.index t = ![q0.val, q1.val, 0, 0] :=
  (by decide +kernel : ∀ (q0 : Fin 4) (q1 : Fin 16), ∃ t : Fin grid0.N, win0_2.index t = ![q0.val, q1.val, 0, 0])

/-! ## What a point writes back -/

/-- WHAT POINT `t` WRITES BACK is block `t` of the nine-tap sum of the padded image and the weights as the launch
    finds them. -/
theorem flushed_eq (c : Dev nD) (t : Fin cfg0.N) :
    (dats m 0 c).flushed 2 t
      = ((cfg0.win 2).blk t).view.read (Elt Ideal) (conv (V m c main_v0) (V m c main_arg1)) := by
  rw [Value.flushed2]
  unfold out0_2
  rw [View.canon_unit_zero zero4]
  simp only [View.ld_unit_zero (S := S1x4x258x258) zero4, View.ld_unit_zero (S := S1x36x256x256) zero4]
  obtain ⟨e00, e01, e02, e03, e10, e11, e12, e13, b0, b1, e22, e23⟩ := index_facts t
  funext j
  revert j
  intro (j : S1x4x256x256.Idx)
  obtain ⟨z, cb, h, v, rfl⟩ : ∃ (z : Fin 1) (cb : Fin 4) (h v : Fin 256), j = ix4 z cb h v :=
    ⟨j 0, j 1, j 2, j 3, eq_ix4 j⟩
  obtain rfl : z = 0 := Subsingleton.elim _ _
  have hcb := cb.isLt; have hh := h.isLt; have hv := v.isLt
  show k0_pay1 (k0_pay4 (iblk m c 0 t) (iblk m c 1 t)) (k0_pay5 (iblk m c 1 t)) (k0_pay6 (iblk m c 0 t)) (ix4 (0 : Fin 1) cb h v)
    = conv (V m c main_v0) (V m c main_arg1) (((cfg0.win 2).blk t).view.emb (ix4 (0 : Fin 1) cb h v))
  have he : ((cfg0.win 2).blk t).view.emb (ix4 (0 : Fin 1) cb h v)
      = ix4 (⟨win0_2.index t (0 : Fin 4), b0⟩ : Fin 4) (⟨win0_2.index t (1 : Fin 4) * 4 + cb.val, by omega⟩ : Fin 64) h v :=
    funext fun a => Fin.ext (by
      match a with
      | ⟨0, _⟩ => show win0_2.index t (0 : Fin 4) * 1 + 1 * 0 = win0_2.index t (0 : Fin 4); omega
      | ⟨1, _⟩ => show win0_2.index t (1 : Fin 4) * 4 + 1 * cb.val = win0_2.index t (1 : Fin 4) * 4 + cb.val; omega
      | ⟨2, _⟩ => show win0_2.index t (2 : Fin 4) * 256 + 1 * h.val = h.val; omega
      | ⟨3, _⟩ => show win0_2.index t (3 : Fin 4) * 256 + 1 * v.val = v.val; omega)
  rw [he]
  refine block_eq (V m c main_v0) (V m c main_arg1) (win0_2.index t (0 : Fin 4)) (win0_2.index t (1 : Fin 4)) b0 b1
    (iblk m c 0 t) (iblk m c 1 t) ?_ ?_ cb h v
  · intro cb' r s
    have hcb' := cb'.isLt; have hr := r.isLt; have hs := s.isLt
    show V m c main_v0 (((cfg0.win 0).blk t).view.emb (ix4 (0 : Fin 1) cb' r s)) = V m c main_v0 _
    refine congrArg (V m c main_v0) (funext fun a => Fin.ext ?_)
    match a with
    | ⟨0, _⟩ => show win0_0.index t (0 : Fin 4) * 1 + 1 * 0 = win0_2.index t (0 : Fin 4); omega
    | ⟨1, _⟩ => show win0_0.index t (1 : Fin 4) * 4 + 1 * cb'.val = win0_2.index t (1 : Fin 4) * 4 + cb'.val; omega
    | ⟨2, _⟩ => show win0_0.index t (2 : Fin 4) * 258 + 1 * r.val = r.val; omega
    | ⟨3, _⟩ => show win0_0.index t (3 : Fin 4) * 258 + 1 * s.val = s.val; omega
  · intro ch h' v'
    have hch := ch.isLt; have hh' := h'.isLt; have hv' := v'.isLt
    show V m c main_arg1 (((cfg0.win 1).blk t).view.emb (ix4 (0 : Fin 1) ch h' v')) = V m c main_arg1 _
    refine congrArg (V m c main_arg1) (funext fun a => Fin.ext ?_)
    match a with
    | ⟨0, _⟩ => show win0_1.index t (0 : Fin 4) * 1 + 1 * 0 = win0_2.index t (0 : Fin 4); omega
    | ⟨1, _⟩ => show win0_1.index t (1 : Fin 4) * 36 + 1 * ch.val = win0_2.index t (1 : Fin 4) * 36 + ch.val; omega
    | ⟨2, _⟩ => show win0_1.index t (2 : Fin 4) * 256 + 1 * h'.val = h'.val; omega
    | ⟨3, _⟩ => show win0_1.index t (3 : Fin 4) * 256 + 1 * v'.val = v'.val; omega

/-! ## The blocks tile the output -/

/-- An index of the output is in point `t`'s block iff each coordinate is in the block's range on its axis. -/
theorem mem_blk (t : Fin cfg0.N) (i : S4x64x256x256.Idx) :
    i ∈ ((cfg0.win 2).blk t).view.set ↔ ∀ a : Fin 4, win0_2.index t a * S1x4x256x256.size a ≤ (i a).val
      ∧ (i a).val < win0_2.index t a * S1x4x256x256.size a + S1x4x256x256.size a := by
  show i ∈ ((View.whole main_v1).slice (win0_2.rect t)).set ↔ _
  rw [View.set_slice_whole, Rect.mem_set_unit]
  exact Iff.rfl

/-- Output index `(n, ch, h, v)` lies in the block of the point with block indices `(n, ch / 4)`. -/
theorem cover (i : S4x64x256x256.Idx) :
    ∃ t : Fin cfg0.N, (cfg0.win 2).flush t = true ∧ i ∈ ((cfg0.win 2).blk t).view.set := by
  have h0 : (i 0).val < 4 := (i 0).isLt
  have h1 : (i 1).val < 64 := (i 1).isLt
  have h2 : (i 2).val < 256 := (i 2).isLt
  have h3 : (i 3).val < 256 := (i 3).isLt
  obtain ⟨t, ht⟩ := index_onto ⟨(i 0).val, h0⟩ ⟨(i 1).val / 4, by omega⟩
  have q0 : win0_2.index t (0 : Fin 4) = (i 0).val := congrFun ht 0
  have q1 : win0_2.index t (1 : Fin 4) = (i 1).val / 4 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 4 ≤ (i 1).val ∧ (i 1).val < win0_2.index t (1 : Fin 4) * 4 + 4; omega
  | ⟨2, _⟩ => show win0_2.index t (2 : Fin 4) * 256 ≤ (i 2).val ∧ (i 2).val < win0_2.index t (2 : Fin 4) * 256 + 256; omega
  | ⟨3, _⟩ => show win0_2.index t (3 : Fin 4) * 256 ≤ (i 3).val ∧ (i 3).val < win0_2.index t (3 : Fin 4) * 256 + 256; omega

/-- THE OUTPUT ARRAY after the run is the nine-tap sum of the padded image and the weights as the launch finds them. -/
theorem final (c : Dev nD) : (dats m 0 c).arrAt 2 cfg0.N = conv (V m c main_v0) (V m c main_arg1) :=
  (dats m 0 c).arrAt_eq_of_cover 2 _ (fun t _ => flushed_eq m c t) cover

/-! ## The padded image, and the run -/

/-- What the launch finds in the padded image's buffer: the host operations before it have written the argument
    padded by one ring, on the two spatial axes, of the integer zero converted to a float. -/
theorem padded (c : Dev nD) :
    (V m c main_v0 : S4x64x258x258.Idx → EReal)
      = pad S4x64x258x258 ![0, 0, 1, 1] ![0, 0, 1, 1] ![0, 0, 0, 0] (m ((c : Thread nD τ).loc main_arg0))
          (sitofp (F := Ideal) .f32 (constantI S_ 32 0#32)) pads_S4x64x256x256_S4x64x258x258_000_000_110_110 h_S_ := by
  dsimp only [V]
  simp only [hostOps0, hostOps0_1, List.flatten_cons, List.flatten_nil, List.append_nil, List.cons_append, List.nil_append]
  after_results
  rfl

/-- THE KERNEL'S RUN: every weakly fair execution ends with the result array at the nine-tap sum of the zero-padded
    first argument and the second argument, both arguments unchanged. -/
theorem run : θ_run defs (onTc (τ := τ) (main (F := Ideal))) ⟨m, fun _ => 0, ρ⟩ fun r => ∀ c : Dev nD,
      r.2.mem ((c : Thread nD τ).loc main_v1)
        = conv (pad S4x64x258x258 ![0, 0, 1, 1] ![0, 0, 1, 1] ![0, 0, 0, 0] (m ((c : Thread nD τ).loc main_arg0))
            (sitofp (F := Ideal) .f32 (constantI S_ 32 0#32)) pads_S4x64x256x256_S4x64x258x258_000_000_110_110 h_S_)
          (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans ((final m c).trans (by rw [padded m c, V_main_arg1 m c])), (h c).2⟩)
    (Value.run_blocks m ρ)

end Cert.KernelIdeal.ConvArray

end
-- ==== Proof.RefTaps.lean ====
/-
  The reference, read at one output pixel, is the nine-tap sum.

  The reference pads the image, takes the nine 256×256 windows of the padded image at the stencil offsets
  `(a, b)`, `a, b < 3`, gives each a unit axis and joins them along it in row-major stencil order (so patch
  `k` is the window at offset `(k / 3, k % 3)`), reshapes the weights [4, 576, 256, 256] → [4, 64, 9, 256, 256]
  (so entry `(c, k)` is channel `9·c + k`), multiplies patch by weight and sums over the joined axis from
  zero. Read at `(n, c, h, v)` that is `0 + Σ_k xp(n, c, k / 3 + h, k % 3 + v) · w(n, 9·c + k, h, v)`.
-/
import proofs.«151327_j14620068675753_1_alg».proof.Proof.Gen.ReferenceIdeal.Read
import proofs.«151327_j14620068675753_1_alg».proof.Proof.NineTaps
import Idealize.ShloMosaic.Lib.Pipeline.Value
import Idealize.ShloMosaic.Lib.ValueIdx
import Idealize.ShloMosaic.PureOps.Ideal.Laws

noncomputable section

open scoped BigOperators

namespace Cert.ReferenceIdeal.RefTaps

open Cert.ReferenceIdeal Cert.ReferenceIdeal.Gen Cert.ReferenceIdeal.Read Idealize.ShloMosaic Idealize.ShloMosaic.ValueIdx
open Cert.NineTaps

/-- One patch before it is joined: the window of the padded image `xp` at stencil offset `(a, b)`, with a unit
    axis inserted after the channel axis. At `(n, c, 0, h, v)` it is `xp (n, c, a + h, b + v)`. -/
theorem window_apply (xp : S4x64x258x258.Idx → EReal) (a b : Nat) (ha : a < 3) (hb : b < 3)
    (hs : S4x64x258x258.Slices ![0, 0, a, b] S4x64x256x256) (n : Fin 4) (c : Fin 64) (h v : Fin 256) :
    broadcastInDim S4x64x1x256x256 ![0, 1, 3, 4] bcast_S4x64x256x256_S4x64x1x256x256_0_1_3_4
        (extractStridedSlice S4x64x256x256 ![0, 0, a, b] xp hs) (ix5 n c (0 : Fin 1) h v)
      = xp (ix4 n c (⟨a + h.val, by have := h.isLt; omega⟩ : Fin 258) (⟨b + v.val, by have := v.isLt; omega⟩ : Fin 258)) := by
  rw [broadcastInDim_apply _ bcast_S4x64x256x256_S4x64x1x256x256_0_1_3_4 _ (ix5 n c (0 : Fin 1) h v) (ix4 n c h v)
      (fun d => match d with
        | ⟨0, _⟩ => by show n.val = if (4 : Nat) = 1 then 0 else n.val; rw [if_neg (by decide)]
        | ⟨1, _⟩ => by show c.val = if (64 : Nat) = 1 then 0 else c.val; rw [if_neg (by decide)]
        | ⟨2, _⟩ => by show h.val = if (256 : Nat) = 1 then 0 else h.val; rw [if_neg (by decide)]
        | ⟨3, _⟩ => by show v.val = if (256 : Nat) = 1 then 0 else v.val; rw [if_neg (by decide)])]
  exact extractStridedSlice_apply ![0, 0, a, b] xp hs (ix4 n c h v) _
      (fun d => match d with
        | ⟨0, _⟩ => by show n.val = 0 + n.val; omega
        | ⟨1, _⟩ => by show c.val = 0 + c.val; omega
        | ⟨2, _⟩ => by show a + h.val = a + h.val; rfl
        | ⟨3, _⟩ => by show b + v.val = b + v.val; rfl)

/-- The reshaped weights: entry `(n, c, k, h, v)` is channel `9·c + k` of the weights at `(n, h, v)`. -/
theorem weights_apply (x1 : (⟨S4x576x256x256, .f32⟩ : BufTy).Contents (Elt Ideal)) (n : Fin 4) (c : Fin 64) (k : Fin 9) (h v : Fin 256) :
    val_main_v20 (F := Ideal) x1 (ix5 n c k h v) = x1 (wtAt n c h v k) := by
  rw [val_main_v20_apply]
  have hn := n.isLt; have hc := c.isLt; have hk := k.isLt; have hh := h.isLt; have hv := v.isLt
  refine congrArg x1 (funext fun d => Fin.ext ?_)
  match d with
  | ⟨0, _⟩ => show ((((n.val * 64 + c.val) * 9 + k.val) * 256 + h.val) * 256 + v.val) / 37748736 = n.val; omega
  | ⟨1, _⟩ => show ((((n.val * 64 + c.val) * 9 + k.val) * 256 + h.val) * 256 + v.val) / 65536 % 576 = c.val * 9 + k.val; omega
  | ⟨2, _⟩ => show ((((n.val * 64 + c.val) * 9 + k.val) * 256 + h.val) * 256 + v.val) / 256 % 256 = h.val; omega
  | ⟨3, _⟩ => show ((((n.val * 64 + c.val) * 9 + k.val) * 256 + h.val) * 256 + v.val) % 256 = v.val; omega

/-- Off the joined axis a patch's index and the joined array's index agree. -/
theorem off_axis (n : Fin 4) (c : Fin 64) (h v : Fin 256) (k : Fin 9) :
    ∀ b : Fin S4x64x1x256x256.rank, b.cast (rfl : S4x64x1x256x256.rank = S4x64x9x256x256.rank) ≠ (2 : Fin 5) →
      ((ix5 n c (0 : Fin 1) h v : S4x64x1x256x256.Idx) b).val = ((ix5 n c k h v : S4x64x9x256x256.Idx) (b.cast rfl)).val :=
  fun b hb => match b, hb with
    | ⟨0, _⟩, _ => rfl
    | ⟨1, _⟩, _ => rfl
    | ⟨2, _⟩, hb => absurd rfl hb
    | ⟨3, _⟩, _ => rfl
    | ⟨4, _⟩, _ => rfl

/-- PATCH 0 of the joined array is the window at stencil offset (0, 0). -/
theorem patch0 (x0 : (⟨S4x64x256x256, .f32⟩ : BufTy).Contents (Elt Ideal)) (n : Fin 4) (c : Fin 64) (h v : Fin 256) :
    val_main_v19 (F := Ideal) x0 (ix5 n c (0 : Fin 9) h v) = val_main_v0 (F := Ideal) x0 (padAt n c h v 0) := by
  unfold val_main_v19
  rw [concatenate_apply_piece (2 : Fin 5) _ _ (ix5 n c (0 : Fin 9) h v) 0 (by show (0 : Nat) < 9; omega) S4x64x1x256x256
      (val_main_v10 (F := Ideal) x0) rfl rfl 0 rfl (ix5 n c (0 : Fin 1) h v) (off_axis n c h v 0) rfl]
  unfold val_main_v10 val_main_v1
  exact window_apply (val_main_v0 (F := Ideal) x0) 0 0 (by omega) (by omega) _ n c h v

/-- PATCH 1: the window at stencil offset (0, 1). -/
theorem patch1 (x0 : (⟨S4x64x256x256, .f32⟩ : BufTy).Contents (Elt Ideal)) (n : Fin 4) (c : Fin 64) (h v : Fin 256) :
    val_main_v19 (F := Ideal) x0 (ix5 n c (1 : Fin 9) h v) = val_main_v0 (F := Ideal) x0 (padAt n c h v 1) := by
  unfold val_main_v19
  rw [concatenate_apply_piece (2 : Fin 5) _ _ (ix5 n c (1 : Fin 9) h v) 1 (by show (1 : Nat) < 9; omega) S4x64x1x256x256
      (val_main_v11 (F := Ideal) x0) rfl rfl 1 rfl (ix5 n c (0 : Fin 1) h v) (off_axis n c h v 1) rfl]
  unfold val_main_v11 val_main_v2
  exact window_apply (val_main_v0 (F := Ideal) x0) 0 1 (by omega) (by omega) _ n c h v

/-- PATCH 2: the window at stencil offset (0, 2). -/
theorem patch2 (x0 : (⟨S4x64x256x256, .f32⟩ : BufTy).Contents (Elt Ideal)) (n : Fin 4) (c : Fin 64) (h v : Fin 256) :
    val_main_v19 (F := Ideal) x0 (ix5 n c (2 : Fin 9) h v) = val_main_v0 (F := Ideal) x0 (padAt n c h v 2) := by
  unfold val_main_v19
  rw [concatenate_apply_piece (2 : Fin 5) _ _ (ix5 n c (2 : Fin 9) h v) 2 (by show (2 : Nat) < 9; omega) S4x64x1x256x256
      (val_main_v12 (F := Ideal) x0) rfl rfl 2 rfl (ix5 n c (0 : Fin 1) h v) (off_axis n c h v 2) rfl]
  unfold val_main_v12 val_main_v3
  exact window_apply (val_main_v0 (F := Ideal) x0) 0 2 (by omega) (by omega) _ n c h v

/-- PATCH 3: the window at stencil offset (1, 0). -/
theorem patch3 (x0 : (⟨S4x64x256x256, .f32⟩ : BufTy).Contents (Elt Ideal)) (n : Fin 4) (c : Fin 64) (h v : Fin 256) :
    val_main_v19 (F := Ideal) x0 (ix5 n c (3 : Fin 9) h v) = val_main_v0 (F := Ideal) x0 (padAt n c h v 3) := by
  unfold val_main_v19
  rw [concatenate_apply_piece (2 : Fin 5) _ _ (ix5 n c (3 : Fin 9) h v) 3 (by show (3 : Nat) < 9; omega) S4x64x1x256x256
      (val_main_v13 (F := Ideal) x0) rfl rfl 3 rfl (ix5 n c (0 : Fin 1) h v) (off_axis n c h v 3) rfl]
  unfold val_main_v13 val_main_v4
  exact window_apply (val_main_v0 (F := Ideal) x0) 1 0 (by omega) (by omega) _ n c h v

/-- PATCH 4: the window at stencil offset (1, 1), the centre. -/
theorem patch4 (x0 : (⟨S4x64x256x256, .f32⟩ : BufTy).Contents (Elt Ideal)) (n : Fin 4) (c : Fin 64) (h v : Fin 256) :
    val_main_v19 (F := Ideal) x0 (ix5 n c (4 : Fin 9) h v) = val_main_v0 (F := Ideal) x0 (padAt n c h v 4) := by
  unfold val_main_v19
  rw [concatenate_apply_piece (2 : Fin 5) _ _ (ix5 n c (4 : Fin 9) h v) 4 (by show (4 : Nat) < 9; omega) S4x64x1x256x256
      (val_main_v14 (F := Ideal) x0) rfl rfl 4 rfl (ix5 n c (0 : Fin 1) h v) (off_axis n c h v 4) rfl]
  unfold val_main_v14 val_main_v5
  exact window_apply (val_main_v0 (F := Ideal) x0) 1 1 (by omega) (by omega) _ n c h v

/-- PATCH 5: the window at stencil offset (1, 2). -/
theorem patch5 (x0 : (⟨S4x64x256x256, .f32⟩ : BufTy).Contents (Elt Ideal)) (n : Fin 4) (c : Fin 64) (h v : Fin 256) :
    val_main_v19 (F := Ideal) x0 (ix5 n c (5 : Fin 9) h v) = val_main_v0 (F := Ideal) x0 (padAt n c h v 5) := by
  unfold val_main_v19
  rw [concatenate_apply_piece (2 : Fin 5) _ _ (ix5 n c (5 : Fin 9) h v) 5 (by show (5 : Nat) < 9; omega) S4x64x1x256x256
      (val_main_v15 (F := Ideal) x0) rfl rfl 5 rfl (ix5 n c (0 : Fin 1) h v) (off_axis n c h v 5) rfl]
  unfold val_main_v15 val_main_v6
  exact window_apply (val_main_v0 (F := Ideal) x0) 1 2 (by omega) (by omega) _ n c h v

/-- PATCH 6: the window at stencil offset (2, 0). -/
theorem patch6 (x0 : (⟨S4x64x256x256, .f32⟩ : BufTy).Contents (Elt Ideal)) (n : Fin 4) (c : Fin 64) (h v : Fin 256) :
    val_main_v19 (F := Ideal) x0 (ix5 n c (6 : Fin 9) h v) = val_main_v0 (F := Ideal) x0 (padAt n c h v 6) := by
  unfold val_main_v19
  rw [concatenate_apply_piece (2 : Fin 5) _ _ (ix5 n c (6 : Fin 9) h v) 6 (by show (6 : Nat) < 9; omega) S4x64x1x256x256
      (val_main_v16 (F := Ideal) x0) rfl rfl 6 rfl (ix5 n c (0 : Fin 1) h v) (off_axis n c h v 6) rfl]
  unfold val_main_v16 val_main_v7
  exact window_apply (val_main_v0 (F := Ideal) x0) 2 0 (by omega) (by omega) _ n c h v

/-- PATCH 7: the window at stencil offset (2, 1). -/
theorem patch7 (x0 : (⟨S4x64x256x256, .f32⟩ : BufTy).Contents (Elt Ideal)) (n : Fin 4) (c : Fin 64) (h v : Fin 256) :
    val_main_v19 (F := Ideal) x0 (ix5 n c (7 : Fin 9) h v) = val_main_v0 (F := Ideal) x0 (padAt n c h v 7) := by
  unfold val_main_v19
  rw [concatenate_apply_piece (2 : Fin 5) _ _ (ix5 n c (7 : Fin 9) h v) 7 (by show (7 : Nat) < 9; omega) S4x64x1x256x256
      (val_main_v17 (F := Ideal) x0) rfl rfl 7 rfl (ix5 n c (0 : Fin 1) h v) (off_axis n c h v 7) rfl]
  unfold val_main_v17 val_main_v8
  exact window_apply (val_main_v0 (F := Ideal) x0) 2 1 (by omega) (by omega) _ n c h v

/-- PATCH 8: the window at stencil offset (2, 2). -/
theorem patch8 (x0 : (⟨S4x64x256x256, .f32⟩ : BufTy).Contents (Elt Ideal)) (n : Fin 4) (c : Fin 64) (h v : Fin 256) :
    val_main_v19 (F := Ideal) x0 (ix5 n c (8 : Fin 9) h v) = val_main_v0 (F := Ideal) x0 (padAt n c h v 8) := by
  unfold val_main_v19
  rw [concatenate_apply_piece (2 : Fin 5) _ _ (ix5 n c (8 : Fin 9) h v) 8 (by show (8 : Nat) < 9; omega) S4x64x1x256x256
      (val_main_v18 (F := Ideal) x0) rfl rfl 8 rfl (ix5 n c (0 : Fin 1) h v) (off_axis n c h v 8) rfl]
  unfold val_main_v18 val_main_v9
  exact window_apply (val_main_v0 (F := Ideal) x0) 2 2 (by omega) (by omega) _ n c h v

/-- THE JOINED PATCHES at `(n, c, k, h, v)`: the padded image where tap `k` reads it. -/
theorem patches_apply (x0 : (⟨S4x64x256x256, .f32⟩ : BufTy).Contents (Elt Ideal)) (n : Fin 4) (c : Fin 64) (h v : Fin 256) (k : Fin 9) :
    val_main_v19 (F := Ideal) x0 (ix5 n c k h v) = val_main_v0 (F := Ideal) x0 (padAt n c h v k) :=
  match k with
  | ⟨0, _⟩ => patch0 x0 n c h v
  | ⟨1, _⟩ => patch1 x0 n c h v
  | ⟨2, _⟩ => patch2 x0 n c h v
  | ⟨3, _⟩ => patch3 x0 n c h v
  | ⟨4, _⟩ => patch4 x0 n c h v
  | ⟨5, _⟩ => patch5 x0 n c h v
  | ⟨6, _⟩ => patch6 x0 n c h v
  | ⟨7, _⟩ => patch7 x0 n c h v
  | ⟨8, _⟩ => patch8 x0 n c h v
  | ⟨k + 9, hk⟩ => absurd hk (by omega)

/-- THE REFERENCE'S RESULT, as a function of the padded image and the weights, is the nine-tap sum: the sum over
    the joined axis starts from the zero word, and term `k` is patch `k` times the reshaped weights' entry `k`. -/
theorem result_eq (x0 : (⟨S4x64x256x256, .f32⟩ : BufTy).Contents (Elt Ideal)) (x1 : (⟨S4x576x256x256, .f32⟩ : BufTy).Contents (Elt Ideal)) :
    val_main_v22 (F := Ideal) x0 x1 = conv (val_main_v0 (F := Ideal) x0) x1 := by
  funext i
  obtain ⟨n, c, h, v, rfl⟩ : ∃ (n : Fin 4) (c : Fin 64) (h v : Fin 256), i = ix4 n c h v := ⟨i 0, i 1, i 2, i 3, eq_ix4 i⟩
  rw [val_main_v22_apply, conv_apply, val_main_cst_apply, Ideal.ofBits_def, Ideal.ofBits_zero_f32, zero_add]
  refine Finset.sum_congr rfl fun k _ => ?_
  have e : idx_main_v22 (ix4 n c h v) k = ix5 n c k h v := funext fun d => Fin.ext (by
    match d with
    | ⟨0, _⟩ => rfl
    | ⟨1, _⟩ => rfl
    | ⟨2, _⟩ => rfl
    | ⟨3, _⟩ => rfl
    | ⟨4, _⟩ => rfl)
  rw [e, val_main_v21_apply, Ideal.mulf_def, patches_apply, weights_apply]

end Cert.ReferenceIdeal.RefTaps

end
-- ==== Proof.lean ====
/-
  A depthwise 3×3 convolution whose weights vary per pixel, f32[4, 64, 256, 256] image against
  f32[4, 576, 256, 256] weights, padding 1, stride 1:

      out(n, c, h, v) = Σ_{k < 9} xp(n, c, k / 3 + h, k % 3 + v) · w(n, 9·c + k, h, v),

  `xp` the image with one ring of zeros around its two spatial axes.

  The kernel pads on the host, then on a 4 × 16 grid takes four channels at a time — their padded block, the 36
  weight channels that are those four channels' nine taps — and stores zero plus the nine products weight · window
  added from the left. The reference pads the same way, stacks the nine shifted windows along a new axis, reshapes
  the weights to [4, 64, 9, 256, 256], multiplies window · weight and sums over the new axis from zero.

  On the extended reals the two are the same nine products: the factors of each are swapped (multiplication is
  commutative) and a sum over nine indices is its nine terms added in any bracketing (addition is commutative and
  associative, and zero is neutral). No distributivity or cancellation is used, so the argument never needs the inputs
  to be finite.

  Modules: NineTaps (the sum above as a function of the padded image and the weights), StoredTaps (the value the
  kernel body stores, at one entry), ConvArray (the kernel's 64 blocks assemble to the nine-tap sum of the whole
  arrays), RefTaps (the reference's result is the nine-tap sum). The frames of the two kernel programs and the runs
  of both sides are the generated modules'; the ideal pass rewrote nothing, so `preserves` is `True`.
-/
import proofs.«151327_j14620068675753_1_alg».proof.Defs
import proofs.«151327_j14620068675753_1_alg».proof.Proof.Gen.Kernel
import proofs.«151327_j14620068675753_1_alg».proof.Proof.Gen.Kernel.Skeleton
import proofs.«151327_j14620068675753_1_alg».proof.Proof.Gen.Kernel.Launch
import proofs.«151327_j14620068675753_1_alg».proof.Proof.Gen.Kernel.Points
import proofs.«151327_j14620068675753_1_alg».proof.Proof.Gen.Kernel.Frame
import proofs.«151327_j14620068675753_1_alg».proof.Proof.Gen.KernelIdeal
import proofs.«151327_j14620068675753_1_alg».proof.Proof.Gen.KernelIdeal.Skeleton
import proofs.«151327_j14620068675753_1_alg».proof.Proof.Gen.KernelIdeal.Launch
import proofs.«151327_j14620068675753_1_alg».proof.Proof.Gen.KernelIdeal.Points
import proofs.«151327_j14620068675753_1_alg».proof.Proof.Gen.KernelIdeal.Frame
import proofs.«151327_j14620068675753_1_alg».proof.Proof.Gen.ReferenceIdeal
import proofs.«151327_j14620068675753_1_alg».proof.Proof.Gen.Pre_finite_inputs
import proofs.«151327_j14620068675753_1_alg».proof.Proof.Gen.KernelIdeal.Value
import proofs.«151327_j14620068675753_1_alg».proof.Proof.Gen.ReferenceIdeal.Run
import proofs.«151327_j14620068675753_1_alg».proof.Proof.Gen.ReferenceIdeal.Read
import proofs.«151327_j14620068675753_1_alg».proof.Proof.ConvArray
import proofs.«151327_j14620068675753_1_alg».proof.Proof.RefTaps
import Idealize.ShloMosaic.Adequacy
import Idealize.ShloMosaic.Init

noncomputable section

namespace Cert.Proof

open Idealize.ShloMosaic Idealize.SL.Sem

/-- The word-level kernel runs and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs, from memories that agree on the two arguments, end with the nine-tap sum of the zero-padded
    first argument and the second argument: the kernel by its blocks, the reference by its joined windows. -/
theorem algebraic : Cert.algebraic_KernelIdeal_ReferenceIdeal := by
  intro m ρ m' ρ' _ hagree
  refine ⟨_, Cert.KernelIdeal.ConvArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefTaps.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
